-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16 : Shape := ⟨1, ![16]⟩
abbrev S16x8192 : Shape := ⟨2, ![16, 8192]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S16x8192 : S_.BroadcastsInDim S16x8192 (![] : Fin 0 → Fin S16x8192.rank)
  reducesTo_S16x8192_S_d0_1 : S16x8192.ReducesTo [0, 1] S_

variable [Facts]

def fn {F : FTy → Type} [FloatOps F] (main_arg0 : FVec F S16 .f32) (main_arg1 : FVec F S16x8192 .f32) (main_arg2 : FVec F S16x8192 .f32) : IVec S_ 1 :=
  let main_v0 : FVec F S16 .f32 := Host.absf main_arg0
  let main_cst : FVec F S_ .f32 := constant S_ .f32 0x7F800000#32
  let main_v1 : FVec F S16 .f32 := broadcastInDim S16 ![] bcast_S_S16 main_cst
  let main_v2 : IVec S16 1 := cmpf .olt main_v0 main_v1
  let main_c : IVec S_ 1 := constantI S_ 1 1#1
  let main_v3 : IVec S_ 1 := (fun x v => Host.reduce IntOp.andi x v reducesTo_S16_S_d0 h_S_) main_v2 main_c
  let main_v4 : FVec F S16x8192 .f32 := Host.absf main_arg1
  let main_cst_0 : FVec F S_ .f32 := constant S_ .f32 0x7F800000#32
  let main_v5 : FVec F S16x8192 .f32 := broadcastInDim S16x8192 ![] bcast_S_S16x8192 main_cst_0
  let main_v6 : IVec S16x8192 1 := cmpf .olt main_v4 main_v5
  let main_c_1 : IVec S_ 1 := constantI S_ 1 1#1
  let main_v7 : IVec S_ 1 := (fun x v => Host.reduce IntOp.andi x v reducesTo_S16x8192_S_d0_1 h_S_) main_v6 main_c_1
  let main_v8 : IVec S_ 1 := andi main_v3 main_v7
  let main_v9 : FVec F S16x8192 .f32 := Host.absf main_arg2
  let main_cst_2 : FVec F S_ .f32 := constant S_ .f32 0x7F800000#32
  let main_v10 : FVec F S16x8192 .f32 := broadcastInDim S16x8192 ![] bcast_S_S16x8192 main_cst_2
  let main_v11 : IVec S16x8192 1 := cmpf .olt main_v9 main_v10
  let main_c_3 : IVec S_ 1 := constantI S_ 1 1#1
  let main_v12 : IVec S_ 1 := (fun x v => Host.reduce IntOp.andi x v reducesTo_S16x8192_S_d0_1 h_S_) main_v11 main_c_3
  let main_v13 : IVec S_ 1 := andi main_v8 main_v12
  main_v13
-- ==== Kernel.lean ====
abbrev S16 : Shape := ⟨1, ![16]⟩
abbrev S16x8192 : Shape := ⟨2, ![16, 8192]⟩
abbrev S16x1 : Shape := ⟨2, ![16, 1]⟩
abbrev S8192x8192 : Shape := ⟨2, ![8192, 8192]⟩
abbrev S2048x2048 : Shape := ⟨2, ![2048, 2048]⟩
abbrev S16x2048 : Shape := ⟨2, ![16, 2048]⟩

abbrev nBuf : Space → Nat
  | .hbm => 5
  | .vmem => 5
  | .smem => 0
  | _ => 0

abbrev bufTy : (tb : Table) → Fin (tcTables nBuf tb) → BufTy
  | .hbm, ⟨0, _⟩ => ⟨S16, .f32⟩
  | .hbm, ⟨1, _⟩ => ⟨S16x8192, .f32⟩
  | .hbm, ⟨2, _⟩ => ⟨S16x8192, .f32⟩
  | .hbm, ⟨3, _⟩ => ⟨S16x1, .f32⟩
  | .hbm, ⟨4, _⟩ => ⟨S8192x8192, .f32⟩
  | .local _ .vmem, ⟨0, _⟩ => ⟨S16x1, .f32⟩
  | .local _ .vmem, ⟨1, _⟩ => ⟨S16x8192, .f32⟩
  | .local _ .vmem, ⟨2, _⟩ => ⟨S16x8192, .f32⟩
  | .local _ .vmem, ⟨3, _⟩ => ⟨S2048x2048, .f32⟩
  | .local _ .vmem, ⟨4, _⟩ => ⟨S2048x2048, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg0 : BitVec 32 := BitVec.ofNat 32 (i 0).val
  let c2048_i32 : BitVec 32 := 2048#32
  let v7 : BitVec 32 := Scalar.muli arg0 c2048_i32
  v7
def k0_mult2 (i : grid0.Coords) : BitVec 32 :=
  let arg1 : BitVec 32 := BitVec.ofNat 32 (i 1).val
  let c2048_i32_2 : BitVec 32 := 2048#32
  let v9 : BitVec 32 := Scalar.muli arg1 c2048_i32_2
  v9
def k0_off1 (i : grid0.Coords) : Fin 2 → Nat :=
  let c0_3 : Index := 0#32
  let arg0 : BitVec 32 := BitVec.ofNat 32 (i 0).val
  let c2048_i32 : BitVec 32 := 2048#32
  let v7 : BitVec 32 := Scalar.muli arg0 c2048_i32
  let v8 : BitVec 32 := v7
  let v11 : Index := Scalar.indexCast v8
  ![0, v11.toNat]
def k0_off2 (i : grid0.Coords) : Fin 2 → Nat :=
  let c0_4 : Index := 0#32
  let arg1 : BitVec 32 := BitVec.ofNat 32 (i 1).val
  let c2048_i32_2 : BitVec 32 := 2048#32
  let v9 : BitVec 32 := Scalar.muli arg1 c2048_i32_2
  let v10 : BitVec 32 := v9
  let v13 : Index := Scalar.indexCast v10
  ![0, v13.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S16x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S16_S16x1_0 : S16.BroadcastsInDim S16x1 (![0] : Fin 1 → Fin S16x1.rank)
  inb_S16x1_S16x1_0_0 : ∀ a, (![0, 0] : Fin 2 → Nat) a + S16x1.size a ≤ S16x1.size a
  h_S16x1 : 0 < S16x1.numel
  shapeCasts_S16x1_S16x1 : S16x1.ShapeCasts S16x1
  h_S16x2048 : 0 < S16x2048.numel
  broadcasts_S16x1_S16x2048 : S16x1.Broadcasts S16x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  dot_S16x2048_S16x2048_S2048x2048_0_0_1_1_n_n_wf : DotDims.WF S16x2048 S16x2048 S2048x2048 [0] [0] [1] [1] [] []
  hrank0 : 0 < grid0.rank
  k0_mult1_dvd : ∀ i : grid0.Coords, 128 ∣ (k0_mult1 i).toNat
  k0_mult2_dvd : ∀ i : grid0.Coords, 128 ∣ (k0_mult2 i).toNat
  k0_off1_inb : ∀ i : grid0.Coords, ∀ a, (k0_off1 i) a + S16x2048.size a ≤ S16x8192.size a
  k0_off2_inb : ∀ i : grid0.Coords, ∀ a, (k0_off2 i) a + S16x2048.size a ≤ S16x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x1.size a ≤ S16x1.size a
  hwx0_0 : ∀ i : grid0.Coords, EltTy.bits .f32 = 32 ∨ (Rect.block (s := S16x1) S16x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x8192.size a ≤ S16x8192.size a
  hwx0_1 : ∀ i : grid0.Coords, EltTy.bits .f32 = 32 ∨ (Rect.block (s := S16x8192) S16x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x8192.size a ≤ S16x8192.size a
  hwx0_2 : ∀ i : grid0.Coords, EltTy.bits .f32 = 32 ∨ (Rect.block (s := S16x8192) S16x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S8192x8192.size a
  hwx0_3 : ∀ i : grid0.Coords, EltTy.bits .f32 = 32 ∨ (Rect.block (s := S8192x8192) S2048x2048.size (cc0_transform_3 i) (hinb0_3 i)).WholeWords (EltTy.packing .f32)

variable [Facts₀]

def dot_S16x2048_S16x2048_S2048x2048_0_0_1_1_n_n : DotDims S16x2048 S16x2048 S2048x2048 where
  lhsContracting := [0]
  rhsContracting := [0]
  lhsNonContracting := [1]
  rhsNonContracting := [1]
  lhsBatch := []
  rhsBatch := []
  wf := dot_S16x2048_S16x2048_S2048x2048_0_0_1_1_n_n_wf

abbrev win0_0 : Pipeline.Window sig grid0 :=
  Pipeline.Window.ofSpec (Memref.whole main_v0) S16x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16 : Shape := ⟨1, ![16]⟩
abbrev S16x8192 : Shape := ⟨2, ![16, 8192]⟩
abbrev S_ : Shape := ⟨0, ![]⟩
abbrev S16x1 : Shape := ⟨2, ![16, 1]⟩
abbrev S8192x8192 : Shape := ⟨2, ![8192, 8192]⟩

abbrev nBuf : Space → Nat
  | .hbm => 21
  | .vmem => 0
  | .smem => 0
  | _ => 0

abbrev bufTy : (tb : Table) → Fin (tcTables nBuf tb) → BufTy
  | .hbm, ⟨0, _⟩ => ⟨S16, .f32⟩
  | .hbm, ⟨1, _⟩ => ⟨S16x8192, .f32⟩
  | .hbm, ⟨2, _⟩ => ⟨S16x8192, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16x1, .f32⟩
  | .hbm, ⟨18, _⟩ => ⟨S16x8192, .f32⟩
  | .hbm, ⟨19, _⟩ => ⟨S16x8192, .f32⟩
  | .hbm, ⟨20, _⟩ => ⟨S8192x8192, .f32⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S16x1_S16x8192_0_1 : S16x1.BroadcastsInDim S16x8192 (![0, 1] : Fin 2 → Fin S16x8192.rank)
  dot_S16x8192_S16x8192_S8192x8192_0_0_1_1_n_n_wf : DotDims.WF S16x8192 S16x8192 S8192x8192 [0] [0] [1] [1] [] []

variable [Facts₀]

def dot_S16x8192_S16x8192_S8192x8192_0_0_1_1_n_n : DotDims S16x8192 S16x8192 S8192x8192 where
  lhsContracting := [0]
  rhsContracting := [0]
  lhsNonContracting := [1]
  rhsNonContracting := [1]
  lhsBatch := []
  rhsBatch := []
  wf := dot_S16x8192_S16x8192_S8192x8192_0_0_1_1_n_n_wf

class Facts : Prop extends Facts₀ where

variable [Facts]
-- ==== Proof.LibTransposedLhsMatmul.lean ====
/-
  The product with the transposed left factor on the vector unit, on the extended reals: a k×m block
  contracted on its FIRST axis against a k×n block, into a zero accumulator, read at (a, b), is the sum over
  r of A(r, a) · B(r, b) — for any sizes and any float formats of the operands.
-/
import Idealize.ShloMosaic.PureOps.Ideal.Laws
import Idealize.ShloMosaic.Lib.ValueIdx

namespace Cert.LibTransposedLhsMatmul

open Idealize.ShloMosaic Idealize.ShloMosaic.ValueIdx

/-- The dimension numbers <[0], [0], [1], [1], [], []>: a K×M block by a K×N block, both contracted on axis 0. -/
def transposedLhs (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The product with the transposed left factor into a zero accumulator, read at an index: the sum over the
    contracted (first) coordinate of the products of the entries. -/
theorem matmul_transposedLhs_apply {m k n : Nat} {φ₁ φ₂ : FTy} (prec : Option ContractPrecision)
    (A : FVec Ideal ⟨2, ![k, m]⟩ φ₁) (B : FVec Ideal ⟨2, ![k, n]⟩ φ₂) (a : Fin m) (b : Fin n) :
    FloatOps.matmul (transposedLhs m k n) prec A B (constant ⟨2, ![m, n]⟩ .f32 0x00000000#32) (ix2 a b)
      = ∑ r : Fin k, A (ix2 r a) * B (ix2 r b) := by
  rw [Ideal.matmul_constant_zero_apply, ← Equiv.sum_comp (contrEquiv1 (transposedLhs m k n) k rfl rfl).symm]
  refine Finset.sum_congr rfl fun c _ => ?_
  have c2 := contrEquiv1_symm_val (transposedLhs m k n) k rfl rfl c
  have l2 : (transposedLhs m k n).lhsIdx (ix2 a b) ((contrEquiv1 _ k rfl rfl).symm c) = ix2 c a := by
    funext ax; apply Fin.ext
    match ax with
    | ⟨0, _⟩ => simp [DotDims.lhsIdx, transposedLhs]; exact c2
    | ⟨1, _⟩ => simp [DotDims.lhsIdx, transposedLhs]; rfl
  have r2 : (transposedLhs m k n).rhsIdx (ix2 a b) ((contrEquiv1 _ k rfl rfl).symm c) = ix2 c b := by
    funext ax; apply Fin.ext
    match ax with
    | ⟨0, _⟩ => simp [DotDims.rhsIdx, transposedLhs]; exact c2
    | ⟨1, _⟩ => simp [DotDims.rhsIdx, transposedLhs]; rfl
  rw [l2, r2]

end Cert.LibTransposedLhsMatmul
-- ==== Proof.LibColumnBroadcast.lean ====
/-
  A column `[a, 1]` broadcast along its unit axis to `[a, b]`, read at an index: entry `(p, c)` of the
  result is entry `(p, 0)` of the column.  The vector form (`broadcastTo`) and the host form
  (`broadcastInDim` with the axes kept in place) are both given, for any sizes, together with the host
  forms that lift a vector `[b]` to a row `[1, b]`, a row `[1, b]` to `[a, b]`, and a scalar to any shape.
-/
import Idealize.ShloMosaic.Lib.Pipeline.Value
import Idealize.ShloMosaic.Lib.ValueIdx

namespace Cert.LibColumnBroadcast

open Idealize.ShloMosaic Idealize.ShloMosaic.ValueIdx

variable {α : Type}

/-- A column broadcast along its unit axis: entry `(p, c)` is the column's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]`, both axes kept in place. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]`, both axes kept in place. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's lift of a vector `[b]` to a row `[1, b]` along axis 1. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- The host's broadcast of a scalar to any shape: every entry is the scalar. -/
theorem broadcastInDim_scalar_apply {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun a => a.elim0

end Cert.LibColumnBroadcast
-- ==== Proof.TileValue.lean ====
/-
  One grid point of the kernel.  The body reads the column of the sixteen numbers η, a window of 2048 columns of V
  and a window of 2048 columns of U, forms the gains g = a + b · σ(η) as a column, scales row k of the V window by
  g_k, and contracts the scaled window against the U window on their common first axis into a zero accumulator.
  The narrowing of both factors to a shorter float format before the product is the identity on the extended
  reals.  So entry (p, q) of the 2048 × 2048 block the point stores is
      Σ_k (g_k · Vwin(k, p)) · Uwin(k, q).
-/
import proofs.«111531_j25168508355298_2_alg».proof.Proof.Gen.KernelIdeal.Frame
import proofs.«111531_j25168508355298_2_alg».proof.Proof.LibTransposedLhsMatmul
import proofs.«111531_j25168508355298_2_alg».proof.Proof.LibColumnBroadcast
import Idealize.ShloMosaic.Lib.Pipeline.Value
import Idealize.ShloMosaic.Lib.Tactic

noncomputable section

namespace Cert.KernelIdeal.Tile

open Cert.KernelIdeal Cert.KernelIdeal.Gen Idealize.ShloMosaic Idealize.ShloMosaic.TcCoe Idealize.ShloMosaic.Tactic
open Idealize.ShloMosaic.ValueIdx Idealize.SL.Sem

theorem zero_offsets : (![0, 0] : Fin 2 → Nat) = fun _ => 0 := funext fun a => by fin_cases a <;> rfl

section AnyFloats

variable {F : FTy → Type} [FloatOps F]

/-- What the body leaves in the output's staging buffer: its one store covers the whole block, and the stored value
    is the body's arithmetic applied to the column it loaded whole and to the two windows it loaded at the point's
    column offsets. -/
theorem stored_block (c : Dev nD) (i : grid0.Coords) (arg2 : Memref sig .tc .vmem S16x1 .f32) (harg2 : arg2.IsWhole)
    (arg3 : Memref sig .tc .vmem S16x8192 .f32) (harg3 : arg3.IsWhole) (arg4 : Memref sig .tc .vmem S16x8192 .f32) (harg4 : arg4.IsWhole)
    (arg5 : Memref sig .tc .vmem S2048x2048 .f32) (harg5 : arg5.IsWhole)
    (x0 : Vec F S16x1 .f32) (x1 : Vec F S16x8192 .f32) (x2 : Vec F S16x8192 .f32) :
    out0_A_3 c i arg2 harg2 arg3 harg3 arg4 harg4 arg5 harg5 x0 x1 x2
      = k0_pay1 x0 (View.ld x1 (Rect.unit (s := S16x8192) (k0_off1 i) S16x2048.size (k0_off1_inb i)))
          (View.ld x2 (Rect.unit (s := S16x8192) (k0_off2 i) S16x2048.size (k0_off2_inb i))) := by
  unfold out0_A_3
  rw [View.read_writes_eq_canon _ _ _ (cover0_A_3 c i arg2 harg2 arg3 harg3 arg4 harg4 arg5 harg5 x0 x1 x2)]
  unfold kernelRun0_A
  dsimp only
  try sl_unfold_words
  rw [View.canon_unit_zero zero_offsets]
  simp only [View.readAt_eq_ld, harg2.read_unread, harg3.read_unread, harg4.read_unread,
    View.ld_unit_zero (S := S16x1) zero_offsets]

end AnyFloats

/-- The printed contraction — both factors contracted on their first axis, no batch axes — is the product with the
    transposed left factor. -/
theorem dims_eq : dot_S16x2048_S16x2048_S2048x2048_0_0_1_1_n_n = Cert.LibTransposedLhsMatmul.transposedLhs 2048 16 2048 := rfl

/-- The body's arithmetic read at entry (p, q) on the extended reals: the sum over the sixteen modes of the gain times
    the V window's entry times the U window's entry. -/
theorem payload_at (x0 : Vec Ideal S16x1 .f32) (a b : Vec Ideal S16x2048 .f32) (p q : Fin 2048) :
    k0_pay1 (F := Ideal) x0 a b (ix2 p q)
      = ∑ k : Fin 16, (Ideal.ofBits .f32 0x3F666666#32 + Ideal.ofBits .f32 0x3DCBC6A8#32 * Ideal.logistic (x0 (ix2 k (0 : Fin 1))))
          * a (ix2 k p) * b (ix2 k q) := by
  unfold k0_pay1
  refine (Cert.LibTransposedLhsMatmul.matmul_transposedLhs_apply (m := 2048) (k := 16) (n := 2048) none _ _ p q).trans ?_
  refine Finset.sum_congr rfl fun k _ => ?_
  show (broadcastTo S16x2048 (addf (broadcast S16x1 (Scalar.ofBits (F := Ideal) .f32 0x3F666666#32))
        (mulf (broadcast S16x1 (Scalar.ofBits (F := Ideal) .f32 0x3DCBC6A8#32)) (logistic (shapeCast S16x1 x0 shapeCasts_S16x1_S16x1))))
      broadcasts_S16x1_S16x2048 (ix2 k p) * a (ix2 k p)) * b (ix2 k q) = _
  rw [Cert.LibColumnBroadcast.broadcastTo_a1_ab_apply]
  show (Ideal.ofBits .f32 0x3F666666#32 + Ideal.ofBits .f32 0x3DCBC6A8#32
      * Ideal.logistic (shapeCast S16x1 x0 shapeCasts_S16x1_S16x1 (ix2 k (0 : Fin 1)))) * a (ix2 k p) * b (ix2 k q) = _
  rw [shapeCast_self]

end Cert.KernelIdeal.Tile

end
-- ==== Proof.LibLogistic.lean ====
/-
  The logistic function on the extended reals in the two spellings programs use: the single operation, and the
  quotient 1 / (1 + e^(−x)) written out with the float word of 1.0 standing for both ones.  They are one function of
  every extended real x: the single operation is defined as that quotient with the number one, and the word of 1.0
  denotes the number one.  (At −∞ the quotient reads 1 / (1 + ∞) = 0 and at +∞ it reads 1 / (1 + 0) = 1, by the
  conventions of the division and of the exponential; nothing here depends on x being finite.)
-/
import Idealize.ShloMosaic.PureOps.Ideal

noncomputable section

namespace Cert.LibLogistic

open Idealize.ShloMosaic

/-- The float word of 1.0 denotes the number one. -/
theorem one_word : Ideal.ofBits .f32 0x3F800000#32 = 1 := by
  simp [Ideal.ofBits, Ideal.ieee, -EReal.coe_mul]; norm_num

/-- The quotient spelling, with the word of 1.0 for both ones, is the logistic function, for every extended real. -/
theorem quotient_eq_logistic (x : EReal) :
    Ideal.div (Ideal.ofBits .f32 0x3F800000#32) (Ideal.ofBits .f32 0x3F800000#32 + Ideal.exp (-x)) = Ideal.logistic x := by
  rw [one_word]; rfl

end Cert.LibLogistic

end
-- ==== Proof.SlowWeights.lean ====
/-
  The specification.  Sixteen slow modes; mode k has a gain
      g_k = a + b · σ(η_k),      σ(x) = 1 / (1 + e^(−x)),
  with a and b the two fixed float words below, read as the exact numbers they denote, and contributes the outer
  product of row k of V with row k of U, scaled by g_k.  The weight matrix is the sum of the sixteen contributions:
      W(n, m) = Σ_k (g_k · V(k, n)) · U(k, m),      n, m < 8192.
  Everything is on the extended reals; no law beyond the definitions is used, so infinite entries are allowed.
-/
import Idealize.ShloMosaic.PureOps.Ideal
import Idealize.ShloMosaic.Lib.ValueIdx
import proofs.«111531_j25168508355298_2_alg».proof.Proof.LibLogistic

noncomputable section

namespace Cert.SlowWeights

open Idealize.ShloMosaic Idealize.ShloMosaic.ValueIdx

/-- The gain of mode `k`: the offset word plus the span word times the logistic function of `η_k`. -/
def gain (eta : (⟨1, ![16]⟩ : Shape).Idx → EReal) (k : Fin 16) : EReal :=
  Ideal.ofBits .f32 0x3F666666#32 + Ideal.ofBits .f32 0x3DCBC6A8#32 * Ideal.logistic (eta (ix1 k))

/-- The gain with the logistic function spelt as the quotient `1 / (1 + e^(−x))`, both ones the float word of 1.0. -/
theorem gain_quotient (eta : (⟨1, ![16]⟩ : Shape).Idx → EReal) (k : Fin 16) :
    Ideal.ofBits .f32 0x3F666666#32 + Ideal.ofBits .f32 0x3DCBC6A8#32
        * Ideal.div (Ideal.ofBits .f32 0x3F800000#32) (Ideal.ofBits .f32 0x3F800000#32 + Ideal.exp (-(eta (ix1 k))))
      = gain eta k := by
  rw [Cert.LibLogistic.quotient_eq_logistic]; rfl

/-- Entry `(n, m)` of the weight matrix: the sum over the modes of the scaled products. -/
def entry (eta : (⟨1, ![16]⟩ : Shape).Idx → EReal) (V U : (⟨2, ![16, 8192]⟩ : Shape).Idx → EReal) (n m : Fin 8192) : EReal :=
  ∑ k : Fin 16, gain eta k * V (ix2 k n) * U (ix2 k m)

/-- The weight matrix as an array. -/
def W (eta : (⟨1, ![16]⟩ : Shape).Idx → EReal) (V U : (⟨2, ![16, 8192]⟩ : Shape).Idx → EReal) :
    (⟨2, ![8192, 8192]⟩ : Shape).Idx → EReal :=
  fun i => entry eta V U (i 0) (i 1)

theorem W_at (eta : (⟨1, ![16]⟩ : Shape).Idx → EReal) (V U : (⟨2, ![16, 8192]⟩ : Shape).Idx → EReal) (n m : Fin 8192) :
    W eta V U (ix2 n m) = entry eta V U n m := rfl

end Cert.SlowWeights

end
-- ==== Proof.LibLoadAt.lean ====
/-
  Two facts about loads through rectangles of unit strides, for any shapes and any family of element values.

  `ld_at`: a load through the rectangle with offsets `off` and sizes `[a, b]` of a rank-2 array, read at (s, l), is the
  array at (off 0 + s, off 1 + l).
  `readAt_whole`: a load through the whole-shape rectangle at zero offsets of a whole buffer holding `x` reads `x`.
-/
import Idealize.ShloMosaic.Lib.Pipeline.FrameBody
import Idealize.ShloMosaic.Lib.Pipeline.Value
import Idealize.ShloMosaic.Lib.ValueIdx

noncomputable section

namespace Cert.Lib

open Idealize.ShloMosaic Idealize.ShloMosaic.ValueIdx

/-- A load through a rectangle of unit strides, read at an index: the contents at the index shifted by the offsets. -/
theorem ld_at {Val : EltTy → Type} {A B a b : Nat} {e : EltTy} (X : (⟨2, ![A, B]⟩ : Shape).Idx → Val e) (off : Fin 2 → Nat)
    (inb : ∀ x, off x + (![a, b] : Fin 2 → Nat) x ≤ (⟨2, ![A, B]⟩ : Shape).size x) (s : Fin a) (l : Fin b)
    (R : Fin A) (Q : Fin B) (h0 : R.val = off 0 + s.val) (h1 : Q.val = off 1 + l.val) :
    View.ld X (Rect.unit (s := ⟨2, ![A, B]⟩) off ![a, b] inb) (ix2 s l) = X (ix2 R Q) := by
  show X ((Rect.unit (s := ⟨2, ![A, B]⟩) off ![a, b] inb).idx (ix2 s l)) = X (ix2 R Q)
  congr 1; funext d; apply Fin.ext
  match d with
  | ⟨0, _⟩ => show off 0 + 1 * s.val = R.val; omega
  | ⟨1, _⟩ => show off 1 + 1 * l.val = Q.val; omega

/-- The zero offsets of a rank-2 rectangle, as the constant function. -/
theorem zero2 : (![0, 0] : Fin 2 → Nat) = fun _ => 0 := funext fun a => by fin_cases a <;> rfl

/-- A load of a whole buffer through the whole-shape rectangle reads its contents. -/
theorem readAt_whole {Val : EltTy → Type} {sig : RefSig} {κ : Kind} {sp : Space} {S : Shape} {e : EltTy}
    (a : Memref sig κ sp S e) (ha : a.IsWhole) (x : S.Idx → Val e)
    {off : Fin S.rank → Nat} (hz : off = fun _ => 0) (inb : ∀ d, off d + S.size d ≤ S.size d) :
    View.readAt Val a.view (Rect.unit off S.size inb).toLoadRect (ha.unread x) = x := by
  rw [View.readAt_eq_ld, ha.read_unread, View.ld_unit_zero hz]

end Cert.Lib

end
-- ==== Proof.KernelValue.lean ====
/-
  The whole kernel run.  The grid is 4 × 4; point (i, j) stores the 2048 × 2048 block of the result whose rows start
  at 2048·i and whose columns start at 2048·j.  The three inputs are resident whole at every point: the column of η
  (a host broadcast of the vector η), V and U.  At point (i, j) the body reads columns 2048·i … of V and columns
  2048·j … of U, so by the one-point formula entry (p, q) of its block is W(2048·i + p, 2048·j + q).  The sixteen
  blocks tile the result, hence the result array ends holding W of the three arguments.
-/
import proofs.«111531_j25168508355298_2_alg».proof.Proof.Gen.KernelIdeal.Value
import proofs.«111531_j25168508355298_2_alg».proof.Proof.TileValue
import proofs.«111531_j25168508355298_2_alg».proof.Proof.SlowWeights
import proofs.«111531_j25168508355298_2_alg».proof.Proof.LibLoadAt
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.SlowWeights

variable (m : (ℓ : Loc nD τ sig) → Buf (Elt Ideal) ℓ) (ρ : Dev nD → PrngReg)

/-! ## The grid -/

/-- Decided over the sixteen points: the three inputs always sit at block (0, 0); the V window starts at column
    2048 · (the result block's row index), the U window at column 2048 · (its column index); both indices are < 4. -/
theorem grid_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ k0_off1 (grid0.coords t) (0 : Fin 2) = 0 ∧ k0_off1 (grid0.coords t) (1 : Fin 2) = win0_3.index t (0 : Fin 2) * 2048
    ∧ k0_off2 (grid0.coords t) (0 : Fin 2) = 0 ∧ k0_off2 (grid0.coords t) (1 : Fin 2) = win0_3.index t (1 : Fin 2) * 2048
    ∧ win0_3.index t (0 : Fin 2) ≤ 3 ∧ win0_3.index t (1 : Fin 2) ≤ 3 :=
  (by decide +kernel : ∀ t : Fin grid0.N, _)

/-- Every one of the 4 × 4 result blocks is some point's. -/
theorem blocks_onto : ∀ (q0 q1 : Fin 4), ∃ t : Fin cfg0.N, win0_3.index t = ![q0.val, q1.val] :=
  (by decide +kernel : ∀ (q0 q1 : Fin 4), ∃ t : Fin grid0.N, win0_3.index t = ![q0.val, q1.val])

/-! ## What the input windows hold -/

/-- The region finds the column array holding η laid out as a 16 × 1 column. -/
theorem column_entry (c : Dev nD) :
    (V m c main_v0 : S16x1.Idx → EReal)
      = broadcastInDim S16x1 ![0] bcast_S16_S16x1_0 (m ((c : Thread nD τ).loc main_arg0)) := by
  dsimp only [Gen.V, Gen.hostOps0]; after_results

/-- Entry (k, 0) of the first window's block, at any point, is η_k. -/
theorem column_at (c : Dev nD) (t : Fin cfg0.N) (k : Fin 16) :
    (iblk m c 0 t : Vec Ideal S16x1 .f32) (ix2 k (0 : Fin 1))
      = (m ((c : Thread nD τ).loc main_arg0) : S16.Idx → EReal) (ix1 k) := by
  obtain ⟨e0, -⟩ := grid_facts t
  unfold iblk
  rw [View.read_apply]
  show (V m c main_v0 : S16x1.Idx → EReal) _ = _
  rw [column_entry]
  refine broadcastInDim_apply _ bcast_S16_S16x1_0 _ _ (ix1 k) (fun a => ?_)
  match a with
  | ⟨0, _⟩ =>
    show k.val = if (16 : Nat) = 1 then 0 else win0_0.index t (0 : Fin 2) * 16 + 1 * k.val
    rw [if_neg (by decide), e0]; omega

/-- The second window's block, at any point, is all of V. -/
theorem window_V (c : Dev nD) (t : Fin cfg0.N) :
    (iblk m c 1 t : Vec Ideal S16x8192 .f32) = m ((c : Thread nD τ).loc main_arg1) := by
  obtain ⟨-, -, e0, e1, -⟩ := grid_facts t
  funext x
  unfold iblk
  rw [View.read_apply]
  show (V m c main_arg1 : S16x8192.Idx → EReal) _ = _
  rw [V_main_arg1]
  refine congrArg (m ((c : Thread nD τ).loc main_arg1) : S16x8192.Idx → EReal) (funext fun a => Fin.ext ?_)
  match a with
  | ⟨0, _⟩ => show win0_1.index t (0 : Fin 2) * 16 + 1 * (x 0).val = (x 0).val; rw [e0]; omega
  | ⟨1, _⟩ => show win0_1.index t (1 : Fin 2) * 8192 + 1 * (x 1).val = (x 1).val; rw [e1]; omega

/-- The third window's block, at any point, is all of U. -/
theorem window_U (c : Dev nD) (t : Fin cfg0.N) :
    (iblk m c 2 t : Vec Ideal S16x8192 .f32) = m ((c : Thread nD τ).loc main_arg2) := by
  obtain ⟨-, -, -, -, e0, e1, -⟩ := grid_facts t
  funext x
  unfold iblk
  rw [View.read_apply]
  show (V m c main_arg2 : S16x8192.Idx → EReal) _ = _
  rw [V_main_arg2]
  refine congrArg (m ((c : Thread nD τ).loc main_arg2) : S16x8192.Idx → EReal) (funext fun a => Fin.ext ?_)
  match a with
  | ⟨0, _⟩ => show win0_2.index t (0 : Fin 2) * 16 + 1 * (x 0).val = (x 0).val; rw [e0]; omega
  | ⟨1, _⟩ => show win0_2.index t (1 : Fin 2) * 8192 + 1 * (x 1).val = (x 1).val; rw [e1]; omega

/-! ## One block of the result -/

/-- The one-point formula placed in the whole matrix: with the V window starting at column `off1 1` and the U window
    at column `off2 1`, entry (p, q) of the body's value is W at (off1 1 + p, off2 1 + q). -/
theorem block_entry (eta : (⟨1, ![16]⟩ : Shape).Idx → EReal) (Vm Um : (⟨2, ![16, 8192]⟩ : Shape).Idx → EReal)
    (x0 : Vec Ideal S16x1 .f32) (h0 : ∀ k : Fin 16, x0 (ix2 k (0 : Fin 1)) = eta (ix1 k))
    (off1 off2 : Fin 2 → Nat) (inb1 : ∀ a, off1 a + S16x2048.size a ≤ S16x8192.size a)
    (inb2 : ∀ a, off2 a + S16x2048.size a ≤ S16x8192.size a)
    (p q : Fin 2048) (n n' : Fin 8192)
    (r1 : off1 0 = 0) (c1 : n.val = off1 1 + p.val) (r2 : off2 0 = 0) (c2 : n'.val = off2 1 + q.val) :
    k0_pay1 (F := Ideal) x0 (View.ld Vm (Rect.unit (s := S16x8192) off1 S16x2048.size inb1))
        (View.ld Um (Rect.unit (s := S16x8192) off2 S16x2048.size inb2)) (ix2 p q)
      = W eta Vm Um (ix2 n n') := by
  rw [Tile.payload_at, W_at]
  unfold entry
  refine Finset.sum_congr rfl fun k _ => ?_
  rw [h0 k]
  refine congrArg₂ (fun x y : EReal => gain eta k * x * y) ?_ ?_
  · exact Cert.Lib.ld_at (Val := Elt Ideal) (e := EltTy.f32) Vm off1 inb1 k p k n (by omega) c1
  · exact Cert.Lib.ld_at (Val := Elt Ideal) (e := EltTy.f32) Um off2 inb2 k q k n' (by omega) c2

/-- A 2048 × 2048 value whose entry (p, q) is G at (2048·i + p, 2048·j + q), written back at the point of block
    (i, j), is that block of G. -/
theorem block_ext (t : Fin cfg0.N) (X : Vec Ideal S2048x2048 .f32) (G : S8192x8192.Idx → EReal)
    (h : ∀ (p q : Fin 2048) (n n' : Fin 8192), n.val = win0_3.index t (0 : Fin 2) * 2048 + p.val →
      n'.val = win0_3.index t (1 : Fin 2) * 2048 + q.val → X (ix2 p q) = G (ix2 n n')) :
    (cfg0.win 3).cut (grid0.coords t) X = ((cfg0.win 3).blk t).view.read (Elt Ideal) G := by
  obtain ⟨-, -, -, -, -, -, -, -, -, -, b0, b1⟩ := grid_facts t
  funext j
  have hp : (j 0).val < 2048 := (j 0).isLt
  have hq : (j 1).val < 2048 := (j 1).isLt
  have e1 : (cfg0.win 3).xinj (grid0.coords t) j = ix2 (⟨(j 0).val, hp⟩ : Fin 2048) (⟨(j 1).val, hq⟩ : Fin 2048) :=
    funext fun a => Fin.ext (by
      match a with
      | ⟨0, _⟩ => rfl
      | ⟨1, _⟩ => rfl)
  have e2 : ((cfg0.win 3).blk t).view.emb j
      = ix2 (⟨win0_3.index t (0 : Fin 2) * 2048 + (j 0).val, by omega⟩ : Fin 8192)
          (⟨win0_3.index t (1 : Fin 2) * 2048 + (j 1).val, by omega⟩ : Fin 8192) :=
    funext fun a => Fin.ext (by
      match a with
      | ⟨0, _⟩ =>
        show win0_3.index t (0 : Fin 2) * 2048 + 1 * (j 0).val = win0_3.index t (0 : Fin 2) * 2048 + (j 0).val
        omega
      | ⟨1, _⟩ =>
        show win0_3.index t (1 : Fin 2) * 2048 + 1 * (j 1).val = win0_3.index t (1 : Fin 2) * 2048 + (j 1).val
        omega)
  show X ((cfg0.win 3).xinj (grid0.coords t) j) = G (((cfg0.win 3).blk t).view.emb j)
  rw [e1, e2]
  exact h _ _ _ _ rfl rfl

/-- What point `t` writes back is its block of W of the three arguments. -/
theorem flushed_eq (c : Dev nD) (t : Fin cfg0.N) :
    (dats m 0 c).flushed 3 t = ((cfg0.win 3).blk t).view.read (Elt Ideal)
      (W (m ((c : Thread nD τ).loc main_arg0)) (m ((c : Thread nD τ).loc main_arg1)) (m ((c : Thread nD τ).loc main_arg2))) := by
  obtain ⟨-, -, -, -, -, -, r1, c1, r2, c2, -⟩ := grid_facts t
  rw [Value.flushed3_A,
    Tile.stored_block c (grid0.coords t) (ms0_0 t) (hs0_0 t) (ms0_1 t) (hs0_1 t) (ms0_2 t) (hs0_2 t) (ms0_3 t) (hs0_3 t)
      (iblk m c 0 t) (iblk m c 1 t) (iblk m c 2 t),
    window_V m c t, window_U m c t]
  refine block_ext t _ _ fun p q n n' hn hn' => ?_
  exact block_entry (m ((c : Thread nD τ).loc main_arg0)) (m ((c : Thread nD τ).loc main_arg1)) (m ((c : Thread nD τ).loc main_arg2))
    (iblk m c 0 t) (fun k => column_at m c t k) (k0_off1 (grid0.coords t)) (k0_off2 (grid0.coords t))
    (k0_off1_inb (grid0.coords t)) (k0_off2_inb (grid0.coords t)) p q n n' r1 (by rw [c1]; exact hn) r2 (by rw [c2]; exact hn')

/-! ## The blocks tile the result -/

/-- An index of the result is in point `t`'s block iff each coordinate lies in the block's range on its axis. -/
theorem mem_block (t : Fin cfg0.N) (i : S8192x8192.Idx) :
    i ∈ ((cfg0.win 3).blk t).view.set ↔ ∀ a : Fin 2, win0_3.index t a * S2048x2048.size a ≤ (i a).val
      ∧ (i a).val < win0_3.index t a * S2048x2048.size a + S2048x2048.size a := by
  show i ∈ ((View.whole main_v1).slice (win0_3.rect t)).set ↔ _
  rw [View.set_slice_whole, Rect.mem_set_unit]
  exact Iff.rfl

/-- Every index of the result lies in the block of the point at (row / 2048, column / 2048). -/
theorem covered (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := blocks_onto ⟨(i 0).val / 2048, by omega⟩ ⟨(i 1).val / 2048, by omega⟩
  have q0 : win0_3.index t (0 : Fin 2) = (i 0).val / 2048 := congrFun ht 0
  have q1 : win0_3.index t (1 : Fin 2) = (i 1).val / 2048 := congrFun ht 1
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 2048 ≤ (i 1).val ∧ (i 1).val < win0_3.index t (1 : Fin 2) * 2048 + 2048
    omega

/-! ## The run -/

/-- After the run the result array holds W of the three arguments. -/
theorem final (c : Dev nD) : (dats m 0 c).arrAt 3 cfg0.N
    = W (m ((c : Thread nD τ).loc main_arg0)) (m ((c : Thread nD τ).loc main_arg1)) (m ((c : Thread nD τ).loc main_arg2)) :=
  (dats m 0 c).arrAt_eq_of_cover 3
    (W (m ((c : Thread nD τ).loc main_arg0)) (m ((c : Thread nD τ).loc main_arg1)) (m ((c : Thread nD τ).loc main_arg2)))
    (fun t _ => flushed_eq m c t) covered

/-- Every weakly fair execution of the kernel's program ends with the result at W of the arguments, the arguments
    unchanged. -/
theorem run : θ_run defs (onTc (τ := τ) (main (F := Ideal))) ⟨m, fun _ => 0, ρ⟩ fun r => ∀ c : Dev nD,
      r.2.mem ((c : Thread nD τ).loc main_v1)
        = W (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.ReferenceValue.lean ====
/-
  The reference computes the specification.  Its program forms the gains as a vector of sixteen numbers — negate,
  exponential, add one, divide one by the sum, scale, shift —, lays them out as a column, spreads the column along
  the rows of V, multiplies, and contracts the first axis of the product against the first axis of U.  Read at an
  index (n, m) that is Σ_k (g_k · V(k, n)) · U(k, m).
-/
import proofs.«111531_j25168508355298_2_alg».proof.Proof.Gen.ReferenceIdeal.Read
import proofs.«111531_j25168508355298_2_alg».proof.Proof.SlowWeights

noncomputable section

namespace Cert.ReferenceIdeal.RefValue

open Cert.ReferenceIdeal Cert.ReferenceIdeal.Gen Cert.ReferenceIdeal.Read Idealize.ShloMosaic Idealize.ShloMosaic.ValueIdx
open Cert.SlowWeights

/-- The gains spread over the rows of V: at any index of row `k` the spread array holds the gain of mode `k`. -/
theorem spread_gain (x0 : (⟨S16, .f32⟩ : BufTy).Contents (Elt Ideal)) (k : Fin 16) (j : S16x8192.Idx) (hj : (j 0).val = k.val) :
    val_main_v11 (F := Ideal) x0 j = gain x0 k := by
  have e : idx_main_v10 (idx_main_v11 j) = ix1 k := funext fun a => Fin.ext (by
    match a with
    | ⟨0, _⟩ => exact hj)
  rw [val_main_v11_apply, val_main_v10_apply, val_main_v9_apply, val_main_v8_apply, val_main_cst_2_apply, val_main_v7_apply,
    val_main_v6_apply, val_main_cst_1_apply, val_main_v5_apply, val_main_v4_apply, val_main_cst_0_apply, val_main_v3_apply,
    val_main_v2_apply, val_main_cst_apply, val_main_v1_apply, val_main_v0_apply, e]
  simp only [Ideal.addf_def, Ideal.mulf_def, Ideal.ofBits_def, Ideal.hostDivf_def, Ideal.hostUnary_exp_def, Ideal.hostNegf_def,
    Ideal.negf_def]
  exact gain_quotient x0 k

/-- The reference's result is the weight matrix of its three arguments. -/
theorem result_eq (x0 : (⟨S16, .f32⟩ : BufTy).Contents (Elt Ideal)) (x1 x2 : (⟨S16x8192, .f32⟩ : BufTy).Contents (Elt Ideal)) :
    val_main_v13 (F := Ideal) x0 x1 x2 = W x0 x1 x2 := by
  funext i
  obtain ⟨n, m, rfl⟩ : ∃ (n m : Fin 8192), i = ix2 n m := ⟨i 0, i 1, eq_ix2 i⟩
  rw [val_main_v13_apply, W_at]
  unfold entry
  refine Finset.sum_congr rfl fun k _ => ?_
  have el : lidx_main_v13 (ix2 n m) k = ix2 k n := funext fun a => Fin.ext (by
    match a with
    | ⟨0, _⟩ => rfl
    | ⟨1, _⟩ => rfl)
  have er : ridx_main_v13 (ix2 n m) k = ix2 k m := funext fun a => Fin.ext (by
    match a with
    | ⟨0, _⟩ => rfl
    | ⟨1, _⟩ => rfl)
  rw [val_main_v12_apply, spread_gain x0 k (lidx_main_v13 (ix2 n m) k) rfl, el, er]
  rfl

end Cert.ReferenceIdeal.RefValue

end
-- ==== Proof.lean ====
/-
  The kernel and the reference compute one matrix.

  Inputs: sixteen numbers η, and two 16 × 8192 arrays V and U.  With the gains
      g_k = a + b · σ(η_k),      σ(x) = 1 / (1 + e^(−x)),
  (a, b two fixed float words, the same on both sides) the result is the 8192 × 8192 matrix
      W(n, m) = Σ_k (g_k · V(k, n)) · U(k, m).

  The reference forms the gains with negate / exponential / add / divide, spreads them over the rows of V and contracts
  the first axes of the scaled V and of U in one product.  The kernel forms them with the logistic function on a column,
  and computes the product in sixteen 2048 × 2048 blocks on a 4 × 4 grid, each from a window of 2048 columns of V and
  of U, through a shorter float format that is the identity on the extended reals.  On the extended reals the logistic
  function is by definition that quotient, each block's entry is the same sixteen-term sum in the same order as the
  reference's, and the blocks tile the result.  No law of arithmetic beyond the definitions is needed, so the
  finiteness of the inputs is never used.

  The frames of the two kernel programs are the generated ones; the reference's frame is its generated run with the
  result forgotten.  The idealization rewrote nothing, so there is nothing to preserve.
-/
import proofs.«111531_j25168508355298_2_alg».proof.Defs
import proofs.«111531_j25168508355298_2_alg».proof.Proof.Gen.Kernel
import proofs.«111531_j25168508355298_2_alg».proof.Proof.Gen.Kernel.Skeleton
import proofs.«111531_j25168508355298_2_alg».proof.Proof.Gen.Kernel.Launch
import proofs.«111531_j25168508355298_2_alg».proof.Proof.Gen.Kernel.Points
import proofs.«111531_j25168508355298_2_alg».proof.Proof.Gen.Kernel.Frame
import proofs.«111531_j25168508355298_2_alg».proof.Proof.Gen.KernelIdeal
import proofs.«111531_j25168508355298_2_alg».proof.Proof.Gen.KernelIdeal.Skeleton
import proofs.«111531_j25168508355298_2_alg».proof.Proof.Gen.KernelIdeal.Launch
import proofs.«111531_j25168508355298_2_alg».proof.Proof.Gen.KernelIdeal.Points
import proofs.«111531_j25168508355298_2_alg».proof.Proof.Gen.KernelIdeal.Frame
import proofs.«111531_j25168508355298_2_alg».proof.Proof.Gen.ReferenceIdeal
import proofs.«111531_j25168508355298_2_alg».proof.Proof.Gen.Pre_finite_inputs
import proofs.«111531_j25168508355298_2_alg».proof.Proof.Gen.KernelIdeal.Value
import proofs.«111531_j25168508355298_2_alg».proof.Proof.Gen.ReferenceIdeal.Run
import proofs.«111531_j25168508355298_2_alg».proof.Proof.Gen.ReferenceIdeal.Read
import proofs.«111531_j25168508355298_2_alg».proof.Proof.KernelValue
import proofs.«111531_j25168508355298_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on η, V and U, the kernel's result array ends at W(η, V, U) and the reference's at the
    same matrix of its own arguments, which are the kernel's. -/
theorem algebraic : Cert.algebraic_KernelIdeal_ReferenceIdeal := by
  intro m ρ m' ρ' _ hagree
  refine ⟨fun c => Cert.SlowWeights.W (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
